-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x28x28x512 : Shape := ⟨4, ![16, 28, 28, 512]⟩
abbrev S512x128 : Shape := ⟨2, ![512, 128]⟩
abbrev S1x128 : Shape := ⟨2, ![1, 128]⟩
abbrev S3x3x128x128 : Shape := ⟨4, ![3, 3, 128, 128]⟩
abbrev S128x512 : Shape := ⟨2, ![128, 512]⟩
abbrev S1x512 : Shape := ⟨2, ![1, 512]⟩
abbrev S_ : Shape := ⟨0, ![]⟩

class Facts : Prop where
  bcast_S_S16x28x28x512 : S_.BroadcastsInDim S16x28x28x512 (![] : Fin 0 → Fin S16x28x28x512.rank)
  reducesTo_S16x28x28x512_S_d0_1_2_3 : S16x28x28x512.ReducesTo [0, 1, 2, 3] S_
  h_S_ : 0 < S_.numel
  bcast_S_S512x128 : S_.BroadcastsInDim S512x128 (![] : Fin 0 → Fin S512x128.rank)
  reducesTo_S512x128_S_d0_1 : S512x128.ReducesTo [0, 1] S_
  bcast_S_S1x128 : S_.BroadcastsInDim S1x128 (![] : Fin 0 → Fin S1x128.rank)
  reducesTo_S1x128_S_d0_1 : S1x128.ReducesTo [0, 1] S_
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S128x512 : S_.BroadcastsInDim S128x512 (![] : Fin 0 → Fin S128x512.rank)
  reducesTo_S128x512_S_d0_1 : S128x512.ReducesTo [0, 1] S_
  bcast_S_S1x512 : S_.BroadcastsInDim S1x512 (![] : Fin 0 → Fin S1x512.rank)
  reducesTo_S1x512_S_d0_1 : S1x512.ReducesTo [0, 1] S_

variable [Facts]

def fn_part2 {F : FTy → Type} [FloatOps F] (main_arg7 : FVec F S128x512 .f32) (main_arg8 : FVec F S1x512 .f32) (main_arg9 : FVec F S1x512 .f32) (main_v33 : IVec S_ 1) : IVec S_ 1 :=
  let main_v34 : FVec F S128x512 .f32 := Host.absf main_arg7
  let main_cst_12 : FVec F S_ .f32 := constant S_ .f32 0x7F800000#32
  let main_v35 : FVec F S128x512 .f32 := broadcastInDim S128x512 ![] bcast_S_S128x512 main_cst_12
  let main_v36 : IVec S128x512 1 := cmpf .olt main_v34 main_v35
  let main_c_13 : IVec S_ 1 := constantI S_ 1 1#1
  let main_v37 : IVec S_ 1 := (fun x v => Host.reduce IntOp.andi x v reducesTo_S128x512_S_d0_1 h_S_) main_v36 main_c_13
  let main_v38 : IVec S_ 1 := andi main_v33 main_v37
  let main_v39 : FVec F S1x512 .f32 := Host.absf main_arg8
  let main_cst_14 : FVec F S_ .f32 := constant S_ .f32 0x7F800000#32
  let main_v40 : FVec F S1x512 .f32 := broadcastInDim S1x512 ![] bcast_S_S1x512 main_cst_14
  let main_v41 : IVec S1x512 1 := cmpf .olt main_v39 main_v40
  let main_c_15 : IVec S_ 1 := constantI S_ 1 1#1
  let main_v42 : IVec S_ 1 := (fun x v => Host.reduce IntOp.andi x v reducesTo_S1x512_S_d0_1 h_S_) main_v41 main_c_15
  let main_v43 : IVec S_ 1 := andi main_v38 main_v42
  let main_v44 : FVec F S1x512 .f32 := Host.absf main_arg9
  let main_cst_16 : FVec F S_ .f32 := constant S_ .f32 0x7F800000#32
  let main_v45 : FVec F S1x512 .f32 := broadcastInDim S1x512 ![] bcast_S_S1x512 main_cst_16
  let main_v46 : IVec S1x512 1 := cmpf .olt main_v44 main_v45
  let main_c_17 : IVec S_ 1 := constantI S_ 1 1#1
  let main_v47 : IVec S_ 1 := (fun x v => Host.reduce IntOp.andi x v reducesTo_S1x512_S_d0_1 h_S_) main_v46 main_c_17
  let main_v48 : IVec S_ 1 := andi main_v43 main_v47
  main_v48

def fn_part1 {F : FTy → Type} [FloatOps F] (main_arg4 : FVec F S3x3x128x128 .f32) (main_arg5 : FVec F S1x128 .f32) (main_arg6 : FVec F S1x128 .f32) (main_arg7 : FVec F S128x512 .f32) (main_arg8 : FVec F S1x512 .f32) (main_arg9 : FVec F S1x512 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S3x3x128x128 .f32 := Host.absf main_arg4
  let main_cst_6 : FVec F S_ .f32 := constant S_ .f32 0x7F800000#32
  let main_v20 : FVec F S3x3x128x128 .f32 := broadcastInDim S3x3x128x128 ![] bcast_S_S3x3x128x128 main_cst_6
  let main_v21 : IVec S3x3x128x128 1 := cmpf .olt main_v19 main_v20
  let main_c_7 : IVec S_ 1 := constantI S_ 1 1#1
  let main_v22 : IVec S_ 1 := (fun x v => Host.reduce IntOp.andi x v reducesTo_S3x3x128x128_S_d0_1_2_3 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S16x28x28x512 .f32) (main_arg1 : FVec F S512x128 .f32) (main_arg2 : FVec F S1x128 .f32) (main_arg3 : FVec F S1x128 .f32) (main_arg4 : FVec F S3x3x128x128 .f32) (main_arg5 : FVec F S1x128 .f32) (main_arg6 : FVec F S1x128 .f32) (main_arg7 : FVec F S128x512 .f32) (main_arg8 : FVec F S1x512 .f32) (main_arg9 : FVec F S1x512 .f32) : IVec S_ 1 :=
  let main_v0 : FVec F S16x28x28x512 .f32 := Host.absf main_arg0
  let main_cst : FVec F S_ .f32 := constant S_ .f32 0x7F800000#32
  let main_v1 : FVec F S16x28x28x512 .f32 := broadcastInDim S16x28x28x512 ![] bcast_S_S16x28x28x512 main_cst
  let main_v2 : IVec S16x28x28x512 1 := cmpf .olt main_v0 main_v1
  let main_c : IVec S_ 1 := constantI S_ 1 1#1
  let main_v3 : IVec S_ 1 := (fun x v => Host.reduce IntOp.andi x v reducesTo_S16x28x28x512_S_d0_1_2_3 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg5 main_arg6 main_arg7 main_arg8 main_arg9 main_v13 main_v16
-- ==== Kernel.lean ====
abbrev S16x28x28x512 : Shape := ⟨4, ![16, 28, 28, 512]⟩
abbrev S512x128 : Shape := ⟨2, ![512, 128]⟩
abbrev S1x128 : Shape := ⟨2, ![1, 128]⟩
abbrev S3x3x128x128 : Shape := ⟨4, ![3, 3, 128, 128]⟩
abbrev S128x512 : Shape := ⟨2, ![128, 512]⟩
abbrev S1x512 : Shape := ⟨2, ![1, 512]⟩
abbrev S3x384x128 : Shape := ⟨3, ![3, 384, 128]⟩
abbrev S1x28x28x512 : Shape := ⟨4, ![1, 28, 28, 512]⟩
abbrev S784x512 : Shape := ⟨2, ![784, 512]⟩
abbrev S784x128 : Shape := ⟨2, ![784, 128]⟩
abbrev S1x28x28x128 : Shape := ⟨4, ![1, 28, 28, 128]⟩
abbrev S1x28x1x128 : Shape := ⟨4, ![1, 28, 1, 128]⟩
abbrev S1x28x27x128 : Shape := ⟨4, ![1, 28, 27, 128]⟩
abbrev S1x28x28x384 : Shape := ⟨4, ![1, 28, 28, 384]⟩
abbrev S1x1x28x384 : Shape := ⟨4, ![1, 1, 28, 384]⟩
abbrev S1x27x28x384 : Shape := ⟨4, ![1, 27, 28, 384]⟩
abbrev S784x384 : Shape := ⟨2, ![784, 384]⟩
abbrev S1x384x128 : Shape := ⟨3, ![1, 384, 128]⟩
abbrev S384x128 : Shape := ⟨2, ![384, 128]⟩

abbrev nBuf : Space → Nat
  | .hbm => 15
  | .vmem => 13
  | .smem => 0
  | _ => 0

abbrev bufTy : (tb : Table) → Fin (tcTables nBuf tb) → BufTy
  | .hbm, ⟨0, _⟩ => ⟨S16x28x28x512, .f32⟩
  | .hbm, ⟨1, _⟩ => ⟨S512x128, .f32⟩
  | .hbm, ⟨2, _⟩ => ⟨S1x128, .f32⟩
  | .hbm, ⟨3, _⟩ => ⟨S1x128, .f32⟩
  | .hbm, ⟨4, _⟩ => ⟨S3x3x128x128, .f32⟩
  | .hbm, ⟨5, _⟩ => ⟨S1x128, .f32⟩
  | .hbm, ⟨6, _⟩ => ⟨S1x128, .f32⟩
  | .hbm, ⟨7, _⟩ => ⟨S128x512, .f32⟩
  | .hbm, ⟨8, _⟩ => ⟨S1x512, .f32⟩
  | .hbm, ⟨9, _⟩ => ⟨S1x512, .f32⟩
  | .hbm, ⟨10, _⟩ => ⟨S512x128, .bf16⟩
  | .hbm, ⟨11, _⟩ => ⟨S3x384x128, .f32⟩
  | .hbm, ⟨12, _⟩ => ⟨S3x384x128, .bf16⟩
  | .hbm, ⟨13, _⟩ => ⟨S128x512, .bf16⟩
  | .hbm, ⟨14, _⟩ => ⟨S16x28x28x512, .f32⟩
  | .local _ .vmem, ⟨0, _⟩ => ⟨S1x28x28x512, .f32⟩
  | .local _ .vmem, ⟨1, _⟩ => ⟨S1x28x28x512, .f32⟩
  | .local _ .vmem, ⟨2, _⟩ => ⟨S512x128, .bf16⟩
  | .local _ .vmem, ⟨3, _⟩ => ⟨S1x128, .f32⟩
  | .local _ .vmem, ⟨4, _⟩ => ⟨S1x128, .f32⟩
  | .local _ .vmem, ⟨5, _⟩ => ⟨S3x384x128, .bf16⟩
  | .local _ .vmem, ⟨6, _⟩ => ⟨S1x128, .f32⟩
  | .local _ .vmem, ⟨7, _⟩ => ⟨S1x128, .f32⟩
  | .local _ .vmem, ⟨8, _⟩ => ⟨S128x512, .bf16⟩
  | .local _ .vmem, ⟨9, _⟩ => ⟨S1x512, .f32⟩
  | .local _ .vmem, ⟨10, _⟩ => ⟨S1x512, .f32⟩
  | .local _ .vmem, ⟨11, _⟩ => ⟨S1x28x28x512, .f32⟩
  | .local _ .vmem, ⟨12, _⟩ => ⟨S1x28x28x512, .f32⟩
  | _, _ => ⟨S16x28x28x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x28x28x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x384x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x28x28x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  shapeCasts_S3x3x128x128_S3x384x128 : S3x3x128x128.ShapeCasts S3x384x128
  inb_S1x28x28x512_S1x28x28x512_0_0_0_0 : ∀ a, (![0, 0, 0, 0] : Fin 4 → Nat) a + S1x28x28x512.size a ≤ S1x28x28x512.size a
  h_S1x28x28x512 : 0 < S1x28x28x512.numel
  shapeCasts_S1x28x28x512_S784x512 : S1x28x28x512.ShapeCasts S784x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  broadcasts_S1x128_S784x128 : S1x128.Broadcasts S784x128
  shapeCasts_S784x128_S1x28x28x128 : S784x128.ShapeCasts S1x28x28x128
  slices_S1x28x28x128_o0_0_0_0_S1x28x27x128 : S1x28x28x128.Slices ![0, 0, 0, 0] S1x28x27x128
  concatenates_S1x28x1x128_S1x28x27x128_S1x28x28x128_d2 : Shape.Concatenates [S1x28x1x128, S1x28x27x128] S1x28x28x128 2
  slices_S1x28x28x128_o0_0_1_0_S1x28x27x128 : S1x28x28x128.Slices ![0, 0, 1, 0] S1x28x27x128
  concatenates_S1x28x27x128_S1x28x1x128_S1x28x28x128_d2 : Shape.Concatenates [S1x28x27x128, S1x28x1x128] S1x28x28x128 2
  concatenates_S1x28x28x128_S1x28x28x128_S1x28x28x128_S1x28x28x384_d3 : Shape.Concatenates [S1x28x28x128, S1x28x28x128, S1x28x28x128] S1x28x28x384 3
  slices_S1x28x28x384_o0_0_0_0_S1x27x28x384 : S1x28x28x384.Slices ![0, 0, 0, 0] S1x27x28x384
  concatenates_S1x1x28x384_S1x27x28x384_S1x28x28x384_d1 : Shape.Concatenates [S1x1x28x384, S1x27x28x384] S1x28x28x384 1
  slices_S1x28x28x384_o0_1_0_0_S1x27x28x384 : S1x28x28x384.Slices ![0, 1, 0, 0] S1x27x28x384
  concatenates_S1x27x28x384_S1x1x28x384_S1x28x28x384_d1 : Shape.Concatenates [S1x27x28x384, S1x1x28x384] S1x28x28x384 1
  shapeCasts_S1x28x28x384_S784x384 : S1x28x28x384.ShapeCasts S784x384
  inb_S3x384x128_S1x384x128_0_0_0 : ∀ a, (![0, 0, 0] : Fin 3 → Nat) a + S1x384x128.size a ≤ S3x384x128.size a
  h_S1x384x128 : 0 < S1x384x128.numel
  shapeCasts_S1x384x128_S384x128 : S1x384x128.ShapeCasts S384x128
  inb_S3x384x128_S1x384x128_1_0_0 : ∀ a, (![1, 0, 0] : Fin 3 → Nat) a + S1x384x128.size a ≤ S3x384x128.size a
  inb_S3x384x128_S1x384x128_2_0_0 : ∀ a, (![2, 0, 0] : Fin 3 → Nat) a + S1x384x128.size a ≤ S3x384x128.size a
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  broadcasts_S1x512_S784x512 : S1x512.Broadcasts S784x512
  shapeCasts_S784x512_S1x28x28x512 : S784x512.ShapeCasts S1x28x28x512
  dot_S784x512_S512x128_S784x128_1_0_0_1_n_n_wf : DotDims.WF S784x512 S512x128 S784x128 [1] [0] [0] [1] [] []
  dot_S784x384_S384x128_S784x128_1_0_0_1_n_n_wf : DotDims.WF S784x384 S384x128 S784x128 [1] [0] [0] [1] [] []
  dot_S784x128_S128x512_S784x512_1_0_0_1_n_n_wf : DotDims.WF S784x128 S128x512 S784x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x28x28x512.size a ≤ S16x28x28x512.size a
  hwx0_0 : ∀ i : grid0.Coords, EltTy.bits .f32 = 32 ∨ (Rect.block (s := S16x28x28x512) S1x28x28x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x384x128.size a ≤ S3x384x128.size a
  hwx0_4 : ∀ i : grid0.Coords, EltTy.bits .bf16 = 32 ∨ (Rect.block (s := S3x384x128) S3x384x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S128x512.size a
  hwx0_7 : ∀ i : grid0.Coords, EltTy.bits .bf16 = 32 ∨ (Rect.block (s := S128x512) S128x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x28x28x512.size a ≤ S16x28x28x512.size a
  hwx0_10 : ∀ i : grid0.Coords, EltTy.bits .f32 = 32 ∨ (Rect.block (s := S16x28x28x512) S1x28x28x512.size (cc0_transform_10 i) (hinb0_10 i)).WholeWords (EltTy.packing .f32)

variable [Facts₀]

def dot_S784x512_S512x128_S784x128_1_0_0_1_n_n : DotDims S784x512 S512x128 S784x128 where
  lhsContracting := [1]
  rhsContracting := [0]
  lhsNonContracting := [0]
  rhsNonContracting := [1]
  lhsBatch := []
  rhsBatch := []
  wf := dot_S784x512_S512x128_S784x128_1_0_0_1_n_n_wf
def dot_S784x384_S384x128_S784x128_1_0_0_1_n_n : DotDims S784x384 S384x128 S784x128 where
  lhsContracting := [1]
  rhsContracting := [0]
  lhsNonContracting := [0]
  rhsNonContracting := [1]
  lhsBatch := []
  rhsBatch := []
  wf := dot_S784x384_S384x128_S784x128_1_0_0_1_n_n_wf
def dot_S784x128_S128x512_S784x512_1_0_0_1_n_n : DotDims S784x128 S128x512 S784x512 where
  lhsContracting := [1]
  rhsContracting := [0]
  lhsNonContracting := [0]
  rhsNonContracting := [1]
  lhsBatch := []
  rhsBatch := []
  wf := dot_S784x128_S128x512_S784x512_1_0_0_1_n_n_wf

abbrev win0_0 : Pipeline.Window sig grid0 :=
  Pipeline.Window.ofSpec (Memref.whole main_arg0) S1x28x28x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S3x384x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x28x28x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16x28x28x512 : Shape := ⟨4, ![16, 28, 28, 512]⟩
abbrev S512x128 : Shape := ⟨2, ![512, 128]⟩
abbrev S1x128 : Shape := ⟨2, ![1, 128]⟩
abbrev S3x3x128x128 : Shape := ⟨4, ![3, 3, 128, 128]⟩
abbrev S128x512 : Shape := ⟨2, ![128, 512]⟩
abbrev S1x512 : Shape := ⟨2, ![1, 512]⟩
abbrev S3x384x128 : Shape := ⟨3, ![3, 384, 128]⟩
abbrev S1x28x28x512 : Shape := ⟨4, ![1, 28, 28, 512]⟩
abbrev S784x512 : Shape := ⟨2, ![784, 512]⟩
abbrev S784x128 : Shape := ⟨2, ![784, 128]⟩
abbrev S1x28x28x128 : Shape := ⟨4, ![1, 28, 28, 128]⟩
abbrev S1x28x1x128 : Shape := ⟨4, ![1, 28, 1, 128]⟩
abbrev S1x28x27x128 : Shape := ⟨4, ![1, 28, 27, 128]⟩
abbrev S1x28x28x384 : Shape := ⟨4, ![1, 28, 28, 384]⟩
abbrev S1x1x28x384 : Shape := ⟨4, ![1, 1, 28, 384]⟩
abbrev S1x27x28x384 : Shape := ⟨4, ![1, 27, 28, 384]⟩
abbrev S784x384 : Shape := ⟨2, ![784, 384]⟩
abbrev S1x384x128 : Shape := ⟨3, ![1, 384, 128]⟩
abbrev S384x128 : Shape := ⟨2, ![384, 128]⟩

abbrev nBuf : Space → Nat
  | .hbm => 12
  | .vmem => 13
  | .smem => 0
  | _ => 0

abbrev bufTy : (tb : Table) → Fin (tcTables nBuf tb) → BufTy
  | .hbm, ⟨0, _⟩ => ⟨S16x28x28x512, .f32⟩
  | .hbm, ⟨1, _⟩ => ⟨S512x128, .f32⟩
  | .hbm, ⟨2, _⟩ => ⟨S1x128, .f32⟩
  | .hbm, ⟨3, _⟩ => ⟨S1x128, .f32⟩
  | .hbm, ⟨4, _⟩ => ⟨S3x3x128x128, .f32⟩
  | .hbm, ⟨5, _⟩ => ⟨S1x128, .f32⟩
  | .hbm, ⟨6, _⟩ => ⟨S1x128, .f32⟩
  | .hbm, ⟨7, _⟩ => ⟨S128x512, .f32⟩
  | .hbm, ⟨8, _⟩ => ⟨S1x512, .f32⟩
  | .hbm, ⟨9, _⟩ => ⟨S1x512, .f32⟩
  | .hbm, ⟨10, _⟩ => ⟨S3x384x128, .f32⟩
  | .hbm, ⟨11, _⟩ => ⟨S16x28x28x512, .f32⟩
  | .local _ .vmem, ⟨0, _⟩ => ⟨S1x28x28x512, .f32⟩
  | .local _ .vmem, ⟨1, _⟩ => ⟨S1x28x28x512, .f32⟩
  | .local _ .vmem, ⟨2, _⟩ => ⟨S512x128, .f32⟩
  | .local _ .vmem, ⟨3, _⟩ => ⟨S1x128, .f32⟩
  | .local _ .vmem, ⟨4, _⟩ => ⟨S1x128, .f32⟩
  | .local _ .vmem, ⟨5, _⟩ => ⟨S3x384x128, .f32⟩
  | .local _ .vmem, ⟨6, _⟩ => ⟨S1x128, .f32⟩
  | .local _ .vmem, ⟨7, _⟩ => ⟨S1x128, .f32⟩
  | .local _ .vmem, ⟨8, _⟩ => ⟨S128x512, .f32⟩
  | .local _ .vmem, ⟨9, _⟩ => ⟨S1x512, .f32⟩
  | .local _ .vmem, ⟨10, _⟩ => ⟨S1x512, .f32⟩
  | .local _ .vmem, ⟨11, _⟩ => ⟨S1x28x28x512, .f32⟩
  | .local _ .vmem, ⟨12, _⟩ => ⟨S1x28x28x512, .f32⟩
  | _, _ => ⟨S16x28x28x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x28x28x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x384x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x28x28x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S3x3x128x128_S3x384x128 : S3x3x128x128.ShapeCasts S3x384x128
  inb_S1x28x28x512_S1x28x28x512_0_0_0_0 : ∀ a, (![0, 0, 0, 0] : Fin 4 → Nat) a + S1x28x28x512.size a ≤ S1x28x28x512.size a
  h_S1x28x28x512 : 0 < S1x28x28x512.numel
  shapeCasts_S1x28x28x512_S784x512 : S1x28x28x512.ShapeCasts S784x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  broadcasts_S1x128_S784x128 : S1x128.Broadcasts S784x128
  shapeCasts_S784x128_S1x28x28x128 : S784x128.ShapeCasts S1x28x28x128
  slices_S1x28x28x128_o0_0_0_0_S1x28x27x128 : S1x28x28x128.Slices ![0, 0, 0, 0] S1x28x27x128
  concatenates_S1x28x1x128_S1x28x27x128_S1x28x28x128_d2 : Shape.Concatenates [S1x28x1x128, S1x28x27x128] S1x28x28x128 2
  slices_S1x28x28x128_o0_0_1_0_S1x28x27x128 : S1x28x28x128.Slices ![0, 0, 1, 0] S1x28x27x128
  concatenates_S1x28x27x128_S1x28x1x128_S1x28x28x128_d2 : Shape.Concatenates [S1x28x27x128, S1x28x1x128] S1x28x28x128 2
  concatenates_S1x28x28x128_S1x28x28x128_S1x28x28x128_S1x28x28x384_d3 : Shape.Concatenates [S1x28x28x128, S1x28x28x128, S1x28x28x128] S1x28x28x384 3
  slices_S1x28x28x384_o0_0_0_0_S1x27x28x384 : S1x28x28x384.Slices ![0, 0, 0, 0] S1x27x28x384
  concatenates_S1x1x28x384_S1x27x28x384_S1x28x28x384_d1 : Shape.Concatenates [S1x1x28x384, S1x27x28x384] S1x28x28x384 1
  slices_S1x28x28x384_o0_1_0_0_S1x27x28x384 : S1x28x28x384.Slices ![0, 1, 0, 0] S1x27x28x384
  concatenates_S1x27x28x384_S1x1x28x384_S1x28x28x384_d1 : Shape.Concatenates [S1x27x28x384, S1x1x28x384] S1x28x28x384 1
  shapeCasts_S1x28x28x384_S784x384 : S1x28x28x384.ShapeCasts S784x384
  inb_S3x384x128_S1x384x128_0_0_0 : ∀ a, (![0, 0, 0] : Fin 3 → Nat) a + S1x384x128.size a ≤ S3x384x128.size a
  h_S1x384x128 : 0 < S1x384x128.numel
  shapeCasts_S1x384x128_S384x128 : S1x384x128.ShapeCasts S384x128
  inb_S3x384x128_S1x384x128_1_0_0 : ∀ a, (![1, 0, 0] : Fin 3 → Nat) a + S1x384x128.size a ≤ S3x384x128.size a
  inb_S3x384x128_S1x384x128_2_0_0 : ∀ a, (![2, 0, 0] : Fin 3 → Nat) a + S1x384x128.size a ≤ S3x384x128.size a
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  broadcasts_S1x512_S784x512 : S1x512.Broadcasts S784x512
  shapeCasts_S784x512_S1x28x28x512 : S784x512.ShapeCasts S1x28x28x512
  dot_S784x512_S512x128_S784x128_1_0_0_1_n_n_wf : DotDims.WF S784x512 S512x128 S784x128 [1] [0] [0] [1] [] []
  dot_S784x384_S384x128_S784x128_1_0_0_1_n_n_wf : DotDims.WF S784x384 S384x128 S784x128 [1] [0] [0] [1] [] []
  dot_S784x128_S128x512_S784x512_1_0_0_1_n_n_wf : DotDims.WF S784x128 S128x512 S784x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x28x28x512.size a ≤ S16x28x28x512.size a
  hwx0_0 : ∀ i : grid0.Coords, EltTy.bits .f32 = 32 ∨ (Rect.block (s := S16x28x28x512) S1x28x28x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x384x128.size a ≤ S3x384x128.size a
  hwx0_4 : ∀ i : grid0.Coords, EltTy.bits .f32 = 32 ∨ (Rect.block (s := S3x384x128) S3x384x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S128x512.size a
  hwx0_7 : ∀ i : grid0.Coords, EltTy.bits .f32 = 32 ∨ (Rect.block (s := S128x512) S128x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x28x28x512.size a ≤ S16x28x28x512.size a
  hwx0_10 : ∀ i : grid0.Coords, EltTy.bits .f32 = 32 ∨ (Rect.block (s := S16x28x28x512) S1x28x28x512.size (cc0_transform_10 i) (hinb0_10 i)).WholeWords (EltTy.packing .f32)

variable [Facts₀]

def dot_S784x512_S512x128_S784x128_1_0_0_1_n_n : DotDims S784x512 S512x128 S784x128 where
  lhsContracting := [1]
  rhsContracting := [0]
  lhsNonContracting := [0]
  rhsNonContracting := [1]
  lhsBatch := []
  rhsBatch := []
  wf := dot_S784x512_S512x128_S784x128_1_0_0_1_n_n_wf
def dot_S784x384_S384x128_S784x128_1_0_0_1_n_n : DotDims S784x384 S384x128 S784x128 where
  lhsContracting := [1]
  rhsContracting := [0]
  lhsNonContracting := [0]
  rhsNonContracting := [1]
  lhsBatch := []
  rhsBatch := []
  wf := dot_S784x384_S384x128_S784x128_1_0_0_1_n_n_wf
def dot_S784x128_S128x512_S784x512_1_0_0_1_n_n : DotDims S784x128 S128x512 S784x512 where
  lhsContracting := [1]
  rhsContracting := [0]
  lhsNonContracting := [0]
  rhsNonContracting := [1]
  lhsBatch := []
  rhsBatch := []
  wf := dot_S784x128_S128x512_S784x512_1_0_0_1_n_n_wf

abbrev win0_0 : Pipeline.Window sig grid0 :=
  Pipeline.Window.ofSpec (Memref.whole main_arg0) S1x28x28x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S3x384x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S1x28x28x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== Proof.Spec.lean ====
/-
  Batches and images.

  The arrays of this problem are batches of 16 images, each 28 rows by 28 columns by 512 channels.  A grid point works on
  one image: its input block is image `n` of the batch, laid out with a leading axis of extent 1, and its output block
  goes to the same place in the result.  This file names that geometry once, without any program: where an index inside an
  image sits in the batch, image `n` of a batch, and the batch obtained by applying one per-image map to every image.
-/
import Idealize.ShloMosaic.Lib.ValueIdx

namespace Cert.Bottleneck

open Idealize.ShloMosaic Idealize.ShloMosaic.ValueIdx

/-- A batch of 16 images. -/
abbrev Batch : Shape := ⟨4, ![16, 28, 28, 512]⟩

/-- One image, with its leading axis of extent 1. -/
abbrev Img : Shape := ⟨4, ![1, 28, 28, 512]⟩

/-- Where the entry `y` of image `n` sits in the batch: image coordinate `n`, then `y`'s row, column and channel. -/
def place (n : Fin 16) (y : Img.Idx) : Batch.Idx := ix4 n (y 1) (y 2) (y 3)

/-- The position inside its image of a batch index: the leading coordinate forgotten. -/
def within (i : Batch.Idx) : Img.Idx := ix4 (0 : Fin 1) (i 1) (i 2) (i 3)

/-- Image `n` of a batch. -/
def image {α : Type} (x : Batch.Idx → α) (n : Fin 16) : Img.Idx → α := fun y => x (place n y)

/-- The batch whose image `n` is `f` of image `n` of `x`, for every `n`. -/
def perImage {α : Type} (f : (Img.Idx → α) → Img.Idx → α) (x : Batch.Idx → α) : Batch.Idx → α :=
  fun i => f (image x (i 0)) (within i)

/-- Placing `y` in image `n` and forgetting the image gives `y` back: the leading coordinate of an image index can
    only be 0. -/
theorem within_place (n : Fin 16) (y : Img.Idx) : within (place n y) = y := by
  funext a
  match a with
  | ⟨0, _⟩ => exact Subsingleton.elim (α := Fin 1) _ _
  | ⟨1, _⟩ => rfl
  | ⟨2, _⟩ => rfl
  | ⟨3, _⟩ => rfl

/-- The per-image batch read at a placed index: `f` of image `n`, at `y`. -/
theorem perImage_place {α : Type} (f : (Img.Idx → α) → Img.Idx → α) (x : Batch.Idx → α) (n : Fin 16) (y : Img.Idx) :
    perImage f x (place n y) = f (image x n) y := by
  show f (image x ((place n y) 0)) (within (place n y)) = f (image x n) y
  rw [within_place]
  rfl

/-- Every batch index is a placed one: in the image its leading coordinate names, at its position within. -/
theorem place_within (i : Batch.Idx) : place (i 0) (within i) = i := by
  funext a
  match a with
  | ⟨0, _⟩ => rfl
  | ⟨1, _⟩ => rfl
  | ⟨2, _⟩ => rfl
  | ⟨3, _⟩ => rfl

end Cert.Bottleneck
-- ==== Proof.KernelArray.lean ====
/-
  The first program's result array, whole.

  Its grid has 16 points, one per image.  Point `t` stages image `t` of the input batch and the nine parameter arrays
  whole, and writes its output block to image `t` of the result.  So the result is the batch whose image `n` is the body's
  per-image function of image `n` of the input and of the parameters: the blocks are read where the index maps put
  them, each point's write-back is one image of that batch, the 16 images cover the result, and the array after the run
  is that batch.
-/
import proofs.«137563_g2000002483576909_pallaspilot1_220_2_alg».proof.Proof.Gen.KernelIdeal.Value
import proofs.«137563_g2000002483576909_pallaspilot1_220_2_alg».proof.Proof.Spec
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.Bottleneck

variable (m : (ℓ : Loc nD τ sig) → Buf (Elt Ideal) ℓ) (ρ : Dev nD → PrngReg)

/-- The index maps, decided over the 16 grid points: the image window and the output window step along the batch axis with
    the point and sit at 0 on the other axes; every other window sits at block 0 on every axis. -/
theorem index_maps : ∀ t : Fin cfg0.N,
    win0_0.index t (0 : Fin 4) = t.val
    ∧ win0_0.index t (1 : Fin 4) = 0
    ∧ win0_0.index t (2 : Fin 4) = 0
    ∧ win0_0.index t (3 : Fin 4) = 0
    ∧ win0_10.index t (0 : Fin 4) = t.val
    ∧ win0_10.index t (1 : Fin 4) = 0
    ∧ win0_10.index t (2 : Fin 4) = 0
    ∧ win0_10.index t (3 : Fin 4) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 3) = 0
    ∧ win0_4.index t (1 : Fin 3) = 0
    ∧ win0_4.index t (2 : Fin 3) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0 :=
  (by decide +kernel : ∀ t : Fin grid0.N, _)

/-- Window 0's block at point `t` is image `t` of its array: the entry `y` of the block is the array's entry at `y` placed in
    image `t`. -/
theorem emb0 (t : Fin cfg0.N) (y : S1x28x28x512.Idx) :
    ((cfg0.win 0).blk t).view.emb y = place (Fin.cast N_0 t) y := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext a; apply Fin.ext
  match a with
  | ⟨0, _⟩ => show win0_0.index t (0 : Fin 4) * 1 + 1 * (y 0).val = t.val; have hy : (y 0).val < 1 := (y 0).isLt; omega
  | ⟨1, _⟩ => show win0_0.index t (1 : Fin 4) * 28 + 1 * (y 1).val = (y 1).val; omega
  | ⟨2, _⟩ => show win0_0.index t (2 : Fin 4) * 28 + 1 * (y 2).val = (y 2).val; omega
  | ⟨3, _⟩ => show win0_0.index t (3 : Fin 4) * 512 + 1 * (y 3).val = (y 3).val; omega

/-- Window 10's block at point `t` is image `t` of its array: the entry `y` of the block is the array's entry at `y` placed in
    image `t`. -/
theorem emb10 (t : Fin cfg0.N) (y : S1x28x28x512.Idx) :
    ((cfg0.win 10).blk t).view.emb y = place (Fin.cast N_0 t) y := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext a; apply Fin.ext
  match a with
  | ⟨0, _⟩ => show win0_10.index t (0 : Fin 4) * 1 + 1 * (y 0).val = t.val; have hy : (y 0).val < 1 := (y 0).isLt; omega
  | ⟨1, _⟩ => show win0_10.index t (1 : Fin 4) * 28 + 1 * (y 1).val = (y 1).val; omega
  | ⟨2, _⟩ => show win0_10.index t (2 : Fin 4) * 28 + 1 * (y 2).val = (y 2).val; omega
  | ⟨3, _⟩ => show win0_10.index t (3 : Fin 4) * 512 + 1 * (y 3).val = (y 3).val; omega

/-- So the image window's block at point `t` is image `t` of the batch as the region finds it. -/
theorem image_block (c : Dev nD) (t : Fin cfg0.N) :
    iblk m c 0 t = image (V m c main_arg0 : S16x28x28x512.Idx → _) (Fin.cast N_0 t) := by
  funext y
  show V m c main_arg0 (((cfg0.win 0).blk t).view.emb y) = V m c main_arg0 (place (Fin.cast N_0 t) y)
  rw [emb0]

/-- Window 1's block is its whole array at every point. -/
theorem whole1 (c : Dev nD) (t : Fin cfg0.N) : iblk m c 1 t = (V m c main_v0 : S512x128.Idx → _) := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext y
  show V m c main_v0 (((cfg0.win 1).blk t).view.emb y) = V m c main_v0 y
  refine congrArg _ ?_
  funext a; apply Fin.ext
  match a with
  | ⟨0, _⟩ => show win0_1.index t (0 : Fin 2) * 512 + 1 * (y 0).val = (y 0).val; omega
  | ⟨1, _⟩ => show win0_1.index t (1 : Fin 2) * 128 + 1 * (y 1).val = (y 1).val; omega

/-- Window 2's block is its whole array at every point. -/
theorem whole2 (c : Dev nD) (t : Fin cfg0.N) : iblk m c 2 t = (V m c main_arg2 : S1x128.Idx → _) := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext y
  show V m c main_arg2 (((cfg0.win 2).blk t).view.emb y) = V m c main_arg2 y
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Window 3's block is its whole array at every point. -/
theorem whole3 (c : Dev nD) (t : Fin cfg0.N) : iblk m c 3 t = (V m c main_arg3 : S1x128.Idx → _) := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext y
  show V m c main_arg3 (((cfg0.win 3).blk t).view.emb y) = V m c main_arg3 y
  refine congrArg _ ?_
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4's block is its whole array at every point. -/
theorem whole4 (c : Dev nD) (t : Fin cfg0.N) : iblk m c 4 t = (V m c main_v2 : S3x384x128.Idx → _) := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext y
  show V m c main_v2 (((cfg0.win 4).blk t).view.emb y) = V m c main_v2 y
  refine congrArg _ ?_
  funext a; apply Fin.ext
  match a with
  | ⟨0, _⟩ => show win0_4.index t (0 : Fin 3) * 3 + 1 * (y 0).val = (y 0).val; omega
  | ⟨1, _⟩ => show win0_4.index t (1 : Fin 3) * 384 + 1 * (y 1).val = (y 1).val; omega
  | ⟨2, _⟩ => show win0_4.index t (2 : Fin 3) * 128 + 1 * (y 2).val = (y 2).val; omega

/-- Window 5's block is its whole array at every point. -/
theorem whole5 (c : Dev nD) (t : Fin cfg0.N) : iblk m c 5 t = (V m c main_arg5 : S1x128.Idx → _) := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext y
  show V m c main_arg5 (((cfg0.win 5).blk t).view.emb y) = V m c main_arg5 y
  refine congrArg _ ?_
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6's block is its whole array at every point. -/
theorem whole6 (c : Dev nD) (t : Fin cfg0.N) : iblk m c 6 t = (V m c main_arg6 : S1x128.Idx → _) := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext y
  show V m c main_arg6 (((cfg0.win 6).blk t).view.emb y) = V m c main_arg6 y
  refine congrArg _ ?_
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block is its whole array at every point. -/
theorem whole7 (c : Dev nD) (t : Fin cfg0.N) : iblk m c 7 t = (V m c main_v3 : S128x512.Idx → _) := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext y
  show V m c main_v3 (((cfg0.win 7).blk t).view.emb y) = V m c main_v3 y
  refine congrArg _ ?_
  funext a; apply Fin.ext
  match a with
  | ⟨0, _⟩ => show win0_7.index t (0 : Fin 2) * 128 + 1 * (y 0).val = (y 0).val; omega
  | ⟨1, _⟩ => show win0_7.index t (1 : Fin 2) * 512 + 1 * (y 1).val = (y 1).val; omega

/-- Window 8's block is its whole array at every point. -/
theorem whole8 (c : Dev nD) (t : Fin cfg0.N) : iblk m c 8 t = (V m c main_arg8 : S1x512.Idx → _) := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext y
  show V m c main_arg8 (((cfg0.win 8).blk t).view.emb y) = V m c main_arg8 y
  refine congrArg _ ?_
  funext a; apply Fin.ext
  match a with
  | ⟨0, _⟩ => show win0_8.index t (0 : Fin 2) * 1 + 1 * (y 0).val = (y 0).val; omega
  | ⟨1, _⟩ => show win0_8.index t (1 : Fin 2) * 512 + 1 * (y 1).val = (y 1).val; omega

/-- Window 9's block is its whole array at every point. -/
theorem whole9 (c : Dev nD) (t : Fin cfg0.N) : iblk m c 9 t = (V m c main_arg9 : S1x512.Idx → _) := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext y
  show V m c main_arg9 (((cfg0.win 9).blk t).view.emb y) = V m c main_arg9 y
  refine congrArg _ ?_
  funext a; apply Fin.ext
  match a with
  | ⟨0, _⟩ => show win0_9.index t (0 : Fin 2) * 1 + 1 * (y 0).val = (y 0).val; omega
  | ⟨1, _⟩ => show win0_9.index t (1 : Fin 2) * 512 + 1 * (y 1).val = (y 1).val; omega

/-- The result batch: to every image of the input batch, the body's per-image function with the nine parameter arrays as
    the region finds them. -/
def G (c : Dev nD) : S16x28x28x512.Idx → Elt Ideal .f32 :=
  perImage (fun x0 => out0_10 (F := Ideal) x0 (V m c main_v0) (V m c main_arg2) (V m c main_arg3) (V m c main_v2) (V m c main_arg5) (V m c main_arg6) (V m c main_v3) (V m c main_arg8) (V m c main_arg9))
    (V m c main_arg0 : S16x28x28x512.Idx → _)

/-- The output window is not cut at any point: what a point writes back is its whole staging block. -/
theorem cut_id (t : Fin cfg0.N) (X : Vec Ideal S1x28x28x512 .f32) : (cfg0.win 10).cut (grid0.coords t) X = X := rfl

/-- WHAT POINT `t` WRITES BACK is image `t` of `G`: its output block, read through the window, is `G` at the placed
    indices. -/
theorem flushed_eq (c : Dev nD) (t : Fin cfg0.N) :
    (dats m 0 c).flushed 10 t = ((cfg0.win 10).blk t).view.read (Elt Ideal) (G m c) := by
  rw [Value.flushed10, image_block, whole1, whole2, whole3, whole4, whole5, whole6, whole7, whole8, whole9, cut_id]
  funext y
  rw [View.read_apply, emb10, G, perImage_place]
  exact (cast_eq _ _).symm

/-- An index of the result is in point `t`'s block iff each coordinate is in the block's range on its axis. -/
theorem mem_blk (t : Fin cfg0.N) (i : S16x28x28x512.Idx) :
    i ∈ ((cfg0.win 10).blk t).view.set ↔ ∀ a : Fin 4, win0_10.index t a * S1x28x28x512.size a ≤ (i a).val ∧ (i a).val < win0_10.index t a * S1x28x28x512.size a + S1x28x28x512.size a := by
  show i ∈ ((View.whole main_v4).slice (win0_10.rect t)).set ↔ _
  rw [View.set_slice_whole, Rect.mem_set_unit]
  exact Iff.rfl

/-- Every index of the result lies in the block of the point its image coordinate names. -/
theorem cover (i : S16x28x28x512.Idx) :
    ∃ t : Fin cfg0.N, (cfg0.win 10).flush t = true ∧ i ∈ ((cfg0.win 10).blk t).view.set := by
  refine ⟨Fin.cast N_0.symm (i 0), flush0_10 _, ?_⟩
  rw [mem_blk]
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps (Fin.cast N_0.symm (i 0))
  intro a
  match a with
  | ⟨0, _⟩ => show win0_10.index _ (0 : Fin 4) * 1 ≤ (i 0).val ∧ (i 0).val < win0_10.index _ (0 : Fin 4) * 1 + 1; rw [e10_0]; show (i 0).val * 1 ≤ (i 0).val ∧ (i 0).val < (i 0).val * 1 + 1; omega
  | ⟨1, _⟩ => show win0_10.index _ (1 : Fin 4) * 28 ≤ (i 1).val ∧ (i 1).val < win0_10.index _ (1 : Fin 4) * 28 + 28; rw [e10_1]; have hi : (i 1).val < 28 := (i 1).isLt; omega
  | ⟨2, _⟩ => show win0_10.index _ (2 : Fin 4) * 28 ≤ (i 2).val ∧ (i 2).val < win0_10.index _ (2 : Fin 4) * 28 + 28; rw [e10_2]; have hi : (i 2).val < 28 := (i 2).isLt; omega
  | ⟨3, _⟩ => show win0_10.index _ (3 : Fin 4) * 512 ≤ (i 3).val ∧ (i 3).val < win0_10.index _ (3 : Fin 4) * 512 + 512; rw [e10_3]; have hi : (i 3).val < 512 := (i 3).isLt; omega

/-- THE RESULT ARRAY after the run is `G`: every index is covered, and each point writes its image of `G`. -/
theorem final (c : Dev nD) : (dats m 0 c).arrAt 10 cfg0.N = G m c :=
  (dats m 0 c).arrAt_eq_of_cover 10 (G m c) (fun t _ => flushed_eq m c t) cover

end Cert.KernelIdeal.Whole

end
-- ==== Proof.ReferenceArray.lean ====
/-
  The second program's result array, whole.

  Its grid has 16 points, one per image.  Point `t` stages image `t` of the input batch and the nine parameter arrays
  whole, and writes its output block to image `t` of the result.  So the result is the batch whose image `n` is the body's
  per-image function of image `n` of the input and of the parameters: the blocks are read where the index maps put
  them, each point's write-back is one image of that batch, the 16 images cover the result, and the array after the run
  is that batch.
-/
import proofs.«137563_g2000002483576909_pallaspilot1_220_2_alg».proof.Proof.Gen.ReferenceIdeal.Value
import proofs.«137563_g2000002483576909_pallaspilot1_220_2_alg».proof.Proof.Spec
import Idealize.ShloMosaic.Lib.Pipeline.Value
import Idealize.ShloMosaic.Lib.ValueIdx

set_option maxRecDepth 16384

noncomputable section

namespace Cert.ReferenceIdeal.Whole

open Cert.ReferenceIdeal Cert.ReferenceIdeal.Gen Idealize.ShloMosaic Idealize.ShloMosaic.TcCoe Idealize.SL.Sem
open Idealize.ShloMosaic.Pipeline (Dat)
open Cert.Bottleneck

variable (m : (ℓ : Loc nD τ sig) → Buf (Elt Ideal) ℓ) (ρ : Dev nD → PrngReg)

/-- The index maps, decided over the 16 grid points: the image window and the output window step along the batch axis with
    the point and sit at 0 on the other axes; every other window sits at block 0 on every axis. -/
theorem index_maps : ∀ t : Fin cfg0.N,
    win0_0.index t (0 : Fin 4) = t.val
    ∧ win0_0.index t (1 : Fin 4) = 0
    ∧ win0_0.index t (2 : Fin 4) = 0
    ∧ win0_0.index t (3 : Fin 4) = 0
    ∧ win0_10.index t (0 : Fin 4) = t.val
    ∧ win0_10.index t (1 : Fin 4) = 0
    ∧ win0_10.index t (2 : Fin 4) = 0
    ∧ win0_10.index t (3 : Fin 4) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 3) = 0
    ∧ win0_4.index t (1 : Fin 3) = 0
    ∧ win0_4.index t (2 : Fin 3) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0 :=
  (by decide +kernel : ∀ t : Fin grid0.N, _)

/-- Window 0's block at point `t` is image `t` of its array: the entry `y` of the block is the array's entry at `y` placed in
    image `t`. -/
theorem emb0 (t : Fin cfg0.N) (y : S1x28x28x512.Idx) :
    ((cfg0.win 0).blk t).view.emb y = place (Fin.cast N_0 t) y := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext a; apply Fin.ext
  match a with
  | ⟨0, _⟩ => show win0_0.index t (0 : Fin 4) * 1 + 1 * (y 0).val = t.val; have hy : (y 0).val < 1 := (y 0).isLt; omega
  | ⟨1, _⟩ => show win0_0.index t (1 : Fin 4) * 28 + 1 * (y 1).val = (y 1).val; omega
  | ⟨2, _⟩ => show win0_0.index t (2 : Fin 4) * 28 + 1 * (y 2).val = (y 2).val; omega
  | ⟨3, _⟩ => show win0_0.index t (3 : Fin 4) * 512 + 1 * (y 3).val = (y 3).val; omega

/-- Window 10's block at point `t` is image `t` of its array: the entry `y` of the block is the array's entry at `y` placed in
    image `t`. -/
theorem emb10 (t : Fin cfg0.N) (y : S1x28x28x512.Idx) :
    ((cfg0.win 10).blk t).view.emb y = place (Fin.cast N_0 t) y := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext a; apply Fin.ext
  match a with
  | ⟨0, _⟩ => show win0_10.index t (0 : Fin 4) * 1 + 1 * (y 0).val = t.val; have hy : (y 0).val < 1 := (y 0).isLt; omega
  | ⟨1, _⟩ => show win0_10.index t (1 : Fin 4) * 28 + 1 * (y 1).val = (y 1).val; omega
  | ⟨2, _⟩ => show win0_10.index t (2 : Fin 4) * 28 + 1 * (y 2).val = (y 2).val; omega
  | ⟨3, _⟩ => show win0_10.index t (3 : Fin 4) * 512 + 1 * (y 3).val = (y 3).val; omega

/-- So the image window's block at point `t` is image `t` of the batch as the region finds it. -/
theorem image_block (c : Dev nD) (t : Fin cfg0.N) :
    iblk m c 0 t = image (V m c main_arg0 : S16x28x28x512.Idx → _) (Fin.cast N_0 t) := by
  funext y
  show V m c main_arg0 (((cfg0.win 0).blk t).view.emb y) = V m c main_arg0 (place (Fin.cast N_0 t) y)
  rw [emb0]

/-- Window 1's block is its whole array at every point. -/
theorem whole1 (c : Dev nD) (t : Fin cfg0.N) : iblk m c 1 t = (V m c main_arg1 : S512x128.Idx → _) := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext y
  show V m c main_arg1 (((cfg0.win 1).blk t).view.emb y) = V m c main_arg1 y
  refine congrArg _ ?_
  funext a; apply Fin.ext
  match a with
  | ⟨0, _⟩ => show win0_1.index t (0 : Fin 2) * 512 + 1 * (y 0).val = (y 0).val; omega
  | ⟨1, _⟩ => show win0_1.index t (1 : Fin 2) * 128 + 1 * (y 1).val = (y 1).val; omega

/-- Window 2's block is its whole array at every point. -/
theorem whole2 (c : Dev nD) (t : Fin cfg0.N) : iblk m c 2 t = (V m c main_arg2 : S1x128.Idx → _) := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext y
  show V m c main_arg2 (((cfg0.win 2).blk t).view.emb y) = V m c main_arg2 y
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Window 3's block is its whole array at every point. -/
theorem whole3 (c : Dev nD) (t : Fin cfg0.N) : iblk m c 3 t = (V m c main_arg3 : S1x128.Idx → _) := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext y
  show V m c main_arg3 (((cfg0.win 3).blk t).view.emb y) = V m c main_arg3 y
  refine congrArg _ ?_
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4's block is its whole array at every point. -/
theorem whole4 (c : Dev nD) (t : Fin cfg0.N) : iblk m c 4 t = (V m c main_v0 : S3x384x128.Idx → _) := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext y
  show V m c main_v0 (((cfg0.win 4).blk t).view.emb y) = V m c main_v0 y
  refine congrArg _ ?_
  funext a; apply Fin.ext
  match a with
  | ⟨0, _⟩ => show win0_4.index t (0 : Fin 3) * 3 + 1 * (y 0).val = (y 0).val; omega
  | ⟨1, _⟩ => show win0_4.index t (1 : Fin 3) * 384 + 1 * (y 1).val = (y 1).val; omega
  | ⟨2, _⟩ => show win0_4.index t (2 : Fin 3) * 128 + 1 * (y 2).val = (y 2).val; omega

/-- Window 5's block is its whole array at every point. -/
theorem whole5 (c : Dev nD) (t : Fin cfg0.N) : iblk m c 5 t = (V m c main_arg5 : S1x128.Idx → _) := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext y
  show V m c main_arg5 (((cfg0.win 5).blk t).view.emb y) = V m c main_arg5 y
  refine congrArg _ ?_
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6's block is its whole array at every point. -/
theorem whole6 (c : Dev nD) (t : Fin cfg0.N) : iblk m c 6 t = (V m c main_arg6 : S1x128.Idx → _) := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext y
  show V m c main_arg6 (((cfg0.win 6).blk t).view.emb y) = V m c main_arg6 y
  refine congrArg _ ?_
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block is its whole array at every point. -/
theorem whole7 (c : Dev nD) (t : Fin cfg0.N) : iblk m c 7 t = (V m c main_arg7 : S128x512.Idx → _) := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext y
  show V m c main_arg7 (((cfg0.win 7).blk t).view.emb y) = V m c main_arg7 y
  refine congrArg _ ?_
  funext a; apply Fin.ext
  match a with
  | ⟨0, _⟩ => show win0_7.index t (0 : Fin 2) * 128 + 1 * (y 0).val = (y 0).val; omega
  | ⟨1, _⟩ => show win0_7.index t (1 : Fin 2) * 512 + 1 * (y 1).val = (y 1).val; omega

/-- Window 8's block is its whole array at every point. -/
theorem whole8 (c : Dev nD) (t : Fin cfg0.N) : iblk m c 8 t = (V m c main_arg8 : S1x512.Idx → _) := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext y
  show V m c main_arg8 (((cfg0.win 8).blk t).view.emb y) = V m c main_arg8 y
  refine congrArg _ ?_
  funext a; apply Fin.ext
  match a with
  | ⟨0, _⟩ => show win0_8.index t (0 : Fin 2) * 1 + 1 * (y 0).val = (y 0).val; omega
  | ⟨1, _⟩ => show win0_8.index t (1 : Fin 2) * 512 + 1 * (y 1).val = (y 1).val; omega

/-- Window 9's block is its whole array at every point. -/
theorem whole9 (c : Dev nD) (t : Fin cfg0.N) : iblk m c 9 t = (V m c main_arg9 : S1x512.Idx → _) := by
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps t
  funext y
  show V m c main_arg9 (((cfg0.win 9).blk t).view.emb y) = V m c main_arg9 y
  refine congrArg _ ?_
  funext a; apply Fin.ext
  match a with
  | ⟨0, _⟩ => show win0_9.index t (0 : Fin 2) * 1 + 1 * (y 0).val = (y 0).val; omega
  | ⟨1, _⟩ => show win0_9.index t (1 : Fin 2) * 512 + 1 * (y 1).val = (y 1).val; omega

/-- The result batch: to every image of the input batch, the body's per-image function with the nine parameter arrays as
    the region finds them. -/
def G (c : Dev nD) : S16x28x28x512.Idx → Elt Ideal .f32 :=
  perImage (fun x0 => out0_10 (F := Ideal) x0 (V m c main_arg1) (V m c main_arg2) (V m c main_arg3) (V m c main_v0) (V m c main_arg5) (V m c main_arg6) (V m c main_arg7) (V m c main_arg8) (V m c main_arg9))
    (V m c main_arg0 : S16x28x28x512.Idx → _)

/-- The output window is not cut at any point: what a point writes back is its whole staging block. -/
theorem cut_id (t : Fin cfg0.N) (X : Vec Ideal S1x28x28x512 .f32) : (cfg0.win 10).cut (grid0.coords t) X = X := rfl

/-- WHAT POINT `t` WRITES BACK is image `t` of `G`: its output block, read through the window, is `G` at the placed
    indices. -/
theorem flushed_eq (c : Dev nD) (t : Fin cfg0.N) :
    (dats m 0 c).flushed 10 t = ((cfg0.win 10).blk t).view.read (Elt Ideal) (G m c) := by
  rw [Value.flushed10, image_block, whole1, whole2, whole3, whole4, whole5, whole6, whole7, whole8, whole9, cut_id]
  funext y
  rw [View.read_apply, emb10, G, perImage_place]
  exact (cast_eq _ _).symm

/-- An index of the result is in point `t`'s block iff each coordinate is in the block's range on its axis. -/
theorem mem_blk (t : Fin cfg0.N) (i : S16x28x28x512.Idx) :
    i ∈ ((cfg0.win 10).blk t).view.set ↔ ∀ a : Fin 4, win0_10.index t a * S1x28x28x512.size a ≤ (i a).val ∧ (i a).val < win0_10.index t a * S1x28x28x512.size a + S1x28x28x512.size a := by
  show i ∈ ((View.whole main_v1).slice (win0_10.rect t)).set ↔ _
  rw [View.set_slice_whole, Rect.mem_set_unit]
  exact Iff.rfl

/-- Every index of the result lies in the block of the point its image coordinate names. -/
theorem cover (i : S16x28x28x512.Idx) :
    ∃ t : Fin cfg0.N, (cfg0.win 10).flush t = true ∧ i ∈ ((cfg0.win 10).blk t).view.set := by
  refine ⟨Fin.cast N_0.symm (i 0), flush0_10 _, ?_⟩
  rw [mem_blk]
  obtain ⟨e0_0, e0_1, e0_2, e0_3, e10_0, e10_1, e10_2, e10_3, e1_0, e1_1, e2_0, e2_1, e3_0, e3_1, e4_0, e4_1, e4_2, e5_0, e5_1, e6_0, e6_1, e7_0, e7_1, e8_0, e8_1, e9_0, e9_1⟩ := index_maps (Fin.cast N_0.symm (i 0))
  intro a
  match a with
  | ⟨0, _⟩ => show win0_10.index _ (0 : Fin 4) * 1 ≤ (i 0).val ∧ (i 0).val < win0_10.index _ (0 : Fin 4) * 1 + 1; rw [e10_0]; show (i 0).val * 1 ≤ (i 0).val ∧ (i 0).val < (i 0).val * 1 + 1; omega
  | ⟨1, _⟩ => show win0_10.index _ (1 : Fin 4) * 28 ≤ (i 1).val ∧ (i 1).val < win0_10.index _ (1 : Fin 4) * 28 + 28; rw [e10_1]; have hi : (i 1).val < 28 := (i 1).isLt; omega
  | ⟨2, _⟩ => show win0_10.index _ (2 : Fin 4) * 28 ≤ (i 2).val ∧ (i 2).val < win0_10.index _ (2 : Fin 4) * 28 + 28; rw [e10_2]; have hi : (i 2).val < 28 := (i 2).isLt; omega
  | ⟨3, _⟩ => show win0_10.index _ (3 : Fin 4) * 512 ≤ (i 3).val ∧ (i 3).val < win0_10.index _ (3 : Fin 4) * 512 + 512; rw [e10_3]; have hi : (i 3).val < 512 := (i 3).isLt; omega

/-- THE RESULT ARRAY after the run is `G`: every index is covered, and each point writes its image of `G`. -/
theorem final (c : Dev nD) : (dats m 0 c).arrAt 10 cfg0.N = G m c :=
  (dats m 0 c).arrAt_eq_of_cover 10 (G m c) (fun t _ => flushed_eq m c t) cover

end Cert.ReferenceIdeal.Whole

end
-- ==== Proof.BodyEq.lean ====
/-
  The two bodies are one function on the extended reals.

  Both programs compute, per image, a residual bottleneck block: a 1x1 convolution (a matrix product over the 512 input
  channels), a per-channel scale and shift and a clamp at zero; a 3x3 convolution with zero padding, written as three
  matrix products over the lane-concatenation of the left-shifted, centred and right-shifted maps, one product per row
  tap; again scale, shift and clamp; a second 1x1 convolution back to 512 channels, scale and shift; the image added
  back and a last clamp at zero.  The first program narrows the operands of every matrix product to a 16-bit format and
  takes its padding zeros in that format; the second keeps 32 bits throughout.  On the extended reals a change of float
  format is the identity and both zero words denote the number 0, and a cast of a shape to itself changes nothing, so
  the two per-image functions agree on every input: no law of arithmetic is used, and no input need be finite.
-/
import proofs.«137563_g2000002483576909_pallaspilot1_220_2_alg».proof.Proof.Gen.KernelIdeal.Frame
import proofs.«137563_g2000002483576909_pallaspilot1_220_2_alg».proof.Proof.Gen.ReferenceIdeal.Frame
import Idealize.ShloMosaic.Lib.Pipeline.Value
import Idealize.ShloMosaic.Lib.ValueIdx

noncomputable section

namespace Cert.Bottleneck

open Idealize.ShloMosaic Idealize.ShloMosaic.TcCoe Idealize.SL.Sem

/-- Narrowing a vector of extended reals to another float format leaves every entry as it was. -/
theorem narrow_id {s : Shape} {φ ψ : FTy} (v : FVec Ideal s φ) (h : ψ.bits < φ.bits) :
    (truncf ψ v h : FVec Ideal s ψ) = v := rfl

/-- A block of padding zeros is the same block whether its zero is written as the 16-bit or as the 32-bit word: both
    words denote the number 0. -/
theorem zeros16_eq_zeros32 (t : Shape) :
    (broadcast t (FloatOps.ofBits (F := Ideal) .bf16 0x0000#16) : FVec Ideal t .bf16)
      = (broadcast t (FloatOps.ofBits (F := Ideal) .f32 0x00000000#32) : FVec Ideal t .f32) := by
  funext i
  simp [broadcast, FloatOps.ofBits, Ideal.ofBits, Ideal.ieee]

/-- The first stage (product with the first weights, scale, shift, clamp) and the left-shifted, centred and
    right-shifted copies of its result, concatenated along the channels: one function of the image, the first weights
    and the first scale and shift in both programs. -/
theorem shifted_eq (v0 : Vec Ideal Cert.KernelIdeal.S1x28x28x512 .f32) (v3 : Vec Ideal Cert.KernelIdeal.S512x128 .bf16)
    (v6 v9 : Vec Ideal Cert.KernelIdeal.S1x128 .f32) :
    Cert.KernelIdeal.Gen.k0_pay2 (F := Ideal) v0 v3 v6 v9 = Cert.ReferenceIdeal.Gen.k0_pay2 (F := Ideal) v0 v3 v6 v9 := by
  unfold Cert.KernelIdeal.Gen.k0_pay2 Cert.ReferenceIdeal.Gen.k0_pay2
  simp only [narrow_id]
  rw [shapeCast_self v3, zeros16_eq_zeros32]
  rfl

/-- The row of padding zeros above the first and below the last image row. -/
theorem zero_row_eq : Cert.KernelIdeal.Gen.k0_pay3 (F := Ideal) = Cert.ReferenceIdeal.Gen.k0_pay3 (F := Ideal) := by
  unfold Cert.KernelIdeal.Gen.k0_pay3 Cert.ReferenceIdeal.Gen.k0_pay3
  exact zeros16_eq_zeros32 _

/-- The upper and the middle row tap of the 3x3 convolution, summed. -/
theorem taps01_eq (v0 : Vec Ideal Cert.KernelIdeal.S1x28x28x512 .f32) (v3 : Vec Ideal Cert.KernelIdeal.S512x128 .bf16)
    (v6 v9 : Vec Ideal Cert.KernelIdeal.S1x128 .f32) (v28 v32 : Vec Ideal Cert.KernelIdeal.S1x384x128 .bf16) :
    Cert.KernelIdeal.Gen.k0_pay4 (F := Ideal) v0 v3 v6 v9 v28 v32 = Cert.ReferenceIdeal.Gen.k0_pay4 (F := Ideal) v0 v3 v6 v9 v28 v32 := by
  unfold Cert.KernelIdeal.Gen.k0_pay4 Cert.ReferenceIdeal.Gen.k0_pay4
  rw [shifted_eq, zero_row_eq]
  rfl

/-- The rows one below, the left operand of the lower row tap. -/
theorem below_eq (v0 : Vec Ideal Cert.KernelIdeal.S1x28x28x512 .f32) (v3 : Vec Ideal Cert.KernelIdeal.S512x128 .bf16)
    (v6 v9 : Vec Ideal Cert.KernelIdeal.S1x128 .f32) :
    Cert.KernelIdeal.Gen.k0_pay5 (F := Ideal) v0 v3 v6 v9 = Cert.ReferenceIdeal.Gen.k0_pay5 (F := Ideal) v0 v3 v6 v9 := by
  unfold Cert.KernelIdeal.Gen.k0_pay5 Cert.ReferenceIdeal.Gen.k0_pay5
  rw [shifted_eq, zero_row_eq]

/-- The lower row tap added, the second scale, shift and clamp, the product with the last weights, the last scale and
    shift, the image added back and the last clamp. -/
theorem tail_eq (v35 : FVec Ideal Cert.KernelIdeal.S784x128 .f32) (v36 : FVec Ideal Cert.KernelIdeal.S784x384 .bf16)
    (v37 : Vec Ideal Cert.KernelIdeal.S1x384x128 .bf16) (v41 v44 : Vec Ideal Cert.KernelIdeal.S1x128 .f32) (v50 : Vec Ideal Cert.KernelIdeal.S128x512 .bf16)
    (v53 v56 : Vec Ideal Cert.KernelIdeal.S1x512 .f32) (v59 : Vec Ideal Cert.KernelIdeal.S1x28x28x512 .f32) :
    Cert.KernelIdeal.Gen.k0_pay1 (F := Ideal) v35 v36 v37 v41 v44 v50 v53 v56 v59
      = Cert.ReferenceIdeal.Gen.k0_pay1 (F := Ideal) v35 v36 v37 v41 v44 v50 v53 v56 v59 := by
  unfold Cert.KernelIdeal.Gen.k0_pay1 Cert.ReferenceIdeal.Gen.k0_pay1
  simp only [narrow_id]
  rw [shapeCast_self v50]
  rfl

/-- What one grid point leaves in its output block, as a function of its ten input blocks, is the same in both
    programs. -/
theorem block_eq (x0 : Vec Ideal Cert.KernelIdeal.S1x28x28x512 .f32) (x1 : Vec Ideal Cert.KernelIdeal.S512x128 .bf16)
    (x2 x3 : Vec Ideal Cert.KernelIdeal.S1x128 .f32) (x4 : Vec Ideal Cert.KernelIdeal.S3x384x128 .bf16) (x5 x6 : Vec Ideal Cert.KernelIdeal.S1x128 .f32)
    (x7 : Vec Ideal Cert.KernelIdeal.S128x512 .bf16) (x8 x9 : Vec Ideal Cert.KernelIdeal.S1x512 .f32) :
    Cert.KernelIdeal.Gen.out0_10 (F := Ideal) x0 x1 x2 x3 x4 x5 x6 x7 x8 x9
      = Cert.ReferenceIdeal.Gen.out0_10 (F := Ideal) x0 x1 x2 x3 x4 x5 x6 x7 x8 x9 := by
  unfold Cert.KernelIdeal.Gen.out0_10 Cert.ReferenceIdeal.Gen.out0_10
  rw [tail_eq, taps01_eq, below_eq]

end Cert.Bottleneck

end
-- ==== Proof.Bridge.lean ====
/-
  The two result batches are one.

  Before its region the first program narrows the three weight arrays on the host (the 3x3 weights after folding their
  column tap into the contraction axis, a reshape); the second program only folds the 3x3 weights.  On the extended reals
  narrowing is the identity, so both regions find the same ten arrays: the image batch, the first weights, the folded
  3x3 weights, the last weights and the six scale and shift rows.  Each program's result is the batch whose every image
  is its body's per-image function of those arrays, and the two per-image functions are one function.  Hence, from
  memories that agree on the ten arguments, the two results are equal entry by entry.
-/
import proofs.«137563_g2000002483576909_pallaspilot1_220_2_alg».proof.Proof.KernelArray
import proofs.«137563_g2000002483576909_pallaspilot1_220_2_alg».proof.Proof.ReferenceArray
import proofs.«137563_g2000002483576909_pallaspilot1_220_2_alg».proof.Proof.BodyEq
import Idealize.ShloMosaic.Lib.StableHlo.Run

set_option maxRecDepth 16384

noncomputable section

open Idealize.ShloMosaic Idealize.ShloMosaic.TcCoe Idealize.SL.Sem

/-! ## What the first program's region finds in its weight windows -/

namespace Cert.KernelIdeal.Entry

open Cert.KernelIdeal Cert.KernelIdeal.Gen

variable (m : (ℓ : Loc nD τ sig) → Buf (Elt Ideal) ℓ)

/-- The first weights, narrowed on the host: the argument itself. -/
theorem first_weights (c : Dev nD) :
    (V m c main_v0 : S512x128.Idx → EReal) = m ((c : Thread nD τ).loc main_arg1) := by
  dsimp only [Gen.V, Gen.hostOps0]; after_results; rfl

/-- The 3x3 weights, folded and then narrowed on the host: the argument folded. -/
theorem folded_weights (c : Dev nD) :
    (V m c main_v2 : S3x384x128.Idx → EReal)
      = shapeCast S3x384x128 (m ((c : Thread nD τ).loc main_arg4)) shapeCasts_S3x3x128x128_S3x384x128 := by
  dsimp only [Gen.V, Gen.hostOps0]; after_results; rfl

/-- The last weights, narrowed on the host: the argument itself. -/
theorem last_weights (c : Dev nD) :
    (V m c main_v3 : S128x512.Idx → EReal) = m ((c : Thread nD τ).loc main_arg7) := by
  dsimp only [Gen.V, Gen.hostOps0]; after_results; rfl

end Cert.KernelIdeal.Entry

/-! ## What the second program's region finds in its folded-weights window -/

namespace Cert.ReferenceIdeal.Entry

open Cert.ReferenceIdeal Cert.ReferenceIdeal.Gen

variable (m : (ℓ : Loc nD τ sig) → Buf (Elt Ideal) ℓ)

/-- The 3x3 weights folded on the host. -/
theorem folded_weights (c : Dev nD) :
    (V m c main_v0 : S3x384x128.Idx → EReal)
      = shapeCast S3x384x128 (m ((c : Thread nD τ).loc main_arg4)) shapeCasts_S3x3x128x128_S3x384x128 := by
  dsimp only [Gen.V, Gen.hostOps0]; after_results; rfl

end Cert.ReferenceIdeal.Entry

/-! ## The two results -/

namespace Cert.Bottleneck

/-- From memories that agree on the ten arguments, the second program's result batch is the first program's. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Whole.G m' c = Cert.KernelIdeal.Whole.G m c := by
  obtain ⟨h0, h1, h2, h3, h4, h5, h6, h7, h8, h9⟩ := h
  unfold Cert.ReferenceIdeal.Whole.G Cert.KernelIdeal.Whole.G
  rw [Cert.KernelIdeal.Entry.first_weights, Cert.KernelIdeal.Entry.folded_weights, Cert.KernelIdeal.Entry.last_weights, Cert.ReferenceIdeal.Entry.folded_weights,
    Cert.KernelIdeal.Gen.V_main_arg0, Cert.KernelIdeal.Gen.V_main_arg2, Cert.KernelIdeal.Gen.V_main_arg3, Cert.KernelIdeal.Gen.V_main_arg5, Cert.KernelIdeal.Gen.V_main_arg6,
    Cert.KernelIdeal.Gen.V_main_arg8, Cert.KernelIdeal.Gen.V_main_arg9,
    Cert.ReferenceIdeal.Gen.V_main_arg0, Cert.ReferenceIdeal.Gen.V_main_arg1, Cert.ReferenceIdeal.Gen.V_main_arg2, Cert.ReferenceIdeal.Gen.V_main_arg3, Cert.ReferenceIdeal.Gen.V_main_arg5,
    Cert.ReferenceIdeal.Gen.V_main_arg6, Cert.ReferenceIdeal.Gen.V_main_arg7, Cert.ReferenceIdeal.Gen.V_main_arg8, Cert.ReferenceIdeal.Gen.V_main_arg9,
    h0, h1, h2, h3, h4, h5, h6, h7, h8, h9]
  refine congrArg (fun f => perImage f _) (funext fun x0 => ?_)
  exact (block_eq x0 _ _ _ _ _ _ _ _ _).symm

end Cert.Bottleneck

end
-- ==== Proof.lean ====
/-
  A residual bottleneck block over a batch of 16 images (28 x 28 pixels, 512 channels): per image a 1x1 convolution to 128
  channels, a 3x3 convolution with zero padding, and a 1x1 convolution back to 512 channels, each followed by a per-channel
  scale and shift, the first two also by a clamp at zero, then the image added back and a last clamp.

  Both programs run this as one region over a grid of 16 points, one image per point, with the same body up to float
  formats: the first narrows every matrix-product operand to 16 bits (the weights once on the host, the activations in
  the body), the second keeps 32 bits.  On the extended reals a change of format is the identity, so:
    * each program's result array is the batch whose image `n` is its body's per-image function of image `n` and of the
      nine parameter arrays (the blocks read where the index maps put them, the 16 output blocks covering the result);
    * the two per-image functions are one function, and the two regions find the same arrays;
    * hence, from memories that agree on the ten arguments, the results agree entry by entry.
  No law of arithmetic is needed, so the finiteness of the inputs is never used.  Idealizing the first
  program rewrites none of its operations, so that it is its own idealization is trivially true; the three frames are
  the generated ones.
-/
import proofs.«137563_g2000002483576909_pallaspilot1_220_2_alg».proof.Defs
import proofs.«137563_g2000002483576909_pallaspilot1_220_2_alg».proof.Proof.Gen.Kernel
import proofs.«137563_g2000002483576909_pallaspilot1_220_2_alg».proof.Proof.Gen.Kernel.Skeleton
import proofs.«137563_g2000002483576909_pallaspilot1_220_2_alg».proof.Proof.Gen.Kernel.Launch
import proofs.«137563_g2000002483576909_pallaspilot1_220_2_alg».proof.Proof.Gen.Kernel.Points
import proofs.«137563_g2000002483576909_pallaspilot1_220_2_alg».proof.Proof.Gen.Kernel.Frame
import proofs.«137563_g2000002483576909_pallaspilot1_220_2_alg».proof.Proof.Gen.KernelIdeal
import proofs.«137563_g2000002483576909_pallaspilot1_220_2_alg».proof.Proof.Gen.KernelIdeal.Skeleton
import proofs.«137563_g2000002483576909_pallaspilot1_220_2_alg».proof.Proof.Gen.KernelIdeal.Launch
import proofs.«137563_g2000002483576909_pallaspilot1_220_2_alg».proof.Proof.Gen.KernelIdeal.Points
import proofs.«137563_g2000002483576909_pallaspilot1_220_2_alg».proof.Proof.Gen.KernelIdeal.Frame
import proofs.«137563_g2000002483576909_pallaspilot1_220_2_alg».proof.Proof.Gen.ReferenceIdeal
import proofs.«137563_g2000002483576909_pallaspilot1_220_2_alg».proof.Proof.Gen.ReferenceIdeal.Skeleton
import proofs.«137563_g2000002483576909_pallaspilot1_220_2_alg».proof.Proof.Gen.ReferenceIdeal.Launch
import proofs.«137563_g2000002483576909_pallaspilot1_220_2_alg».proof.Proof.Gen.ReferenceIdeal.Points
import proofs.«137563_g2000002483576909_pallaspilot1_220_2_alg».proof.Proof.Gen.ReferenceIdeal.Frame
import proofs.«137563_g2000002483576909_pallaspilot1_220_2_alg».proof.Proof.Gen.Pre_finite_inputs
import proofs.«137563_g2000002483576909_pallaspilot1_220_2_alg».proof.Proof.Gen.KernelIdeal.Value
import proofs.«137563_g2000002483576909_pallaspilot1_220_2_alg».proof.Proof.Gen.ReferenceIdeal.Value
import proofs.«137563_g2000002483576909_pallaspilot1_220_2_alg».proof.Proof.Bridge
import Idealize.ShloMosaic.Adequacy
import Idealize.ShloMosaic.Init

noncomputable section

namespace Cert.Proof

open Idealize.ShloMosaic Idealize.SL.Sem Cert.Kernel

/-- The first program as printed runs, and leaves its arguments as they were. -/
theorem frame_kernel : Cert.frame_Kernel := fun m ρ _ => Cert.Kernel.Gen.frame m ρ

/-- So does the first program read on the extended reals. -/
theorem frame_kernel_ideal : Cert.frame_KernelIdeal := fun m ρ _ => Cert.KernelIdeal.Gen.frame m ρ

/-- And the second. -/
theorem frame_reference_ideal : Cert.frame_ReferenceIdeal := fun m ρ _ => Cert.ReferenceIdeal.Gen.frame m ρ

/-- The ideal pass rewrote nothing: there is nothing to preserve. -/
theorem preserves : Cert.preserves_Kernel_KernelIdeal := trivial

/-- From memories that agree on the arguments both programs end with the batch of per-image results: the first
    program's array is that batch (its blocks cover the result), the second's is its own, and the two batches are equal. -/
theorem algebraic : Cert.algebraic_KernelIdeal_ReferenceIdeal := by
  intro m ρ m' ρ' _ hagree
  refine ⟨fun c => Cert.KernelIdeal.Whole.G m c, ?_, ?_⟩
  · exact (θ_run Cert.KernelIdeal.defs _ _).mono
      (fun r h c => ⟨(h c).1.trans (Cert.KernelIdeal.Whole.final m c), (h c).2⟩)
      (Cert.KernelIdeal.Value.run_blocks (F := Ideal) m ρ)
  · exact (θ_run Cert.ReferenceIdeal.defs _ _).mono
      (fun r h c => ⟨((h c).1.trans (Cert.ReferenceIdeal.Whole.final m' c)).trans
          (Cert.Bottleneck.result_eq m m' c (hagree c)), (h c).2⟩)
      (Cert.ReferenceIdeal.Value.run_blocks (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
